-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x128 : Shape := ⟨3, ![1, 100000, 128]⟩
abbrev S2x640000 : Shape := ⟨2, ![2, 640000]⟩
abbrev S3x128x128 : Shape := ⟨3, ![3, 128, 128]⟩
abbrev S3x128 : Shape := ⟨2, ![3, 128]⟩
abbrev S_ : Shape := ⟨0, ![]⟩

class Facts : Prop where
  bcast_S_S1x100000x128 : S_.BroadcastsInDim S1x100000x128 (![] : Fin 0 → Fin S1x100000x128.rank)
  reducesTo_S1x100000x128_S_d0_1_2 : S1x100000x128.ReducesTo [0, 1, 2] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S1x100000x128 .f32) (main_arg1 : IVec S2x640000 32) (main_arg2 : FVec F S3x128x128 .f32) (main_arg3 : FVec F S3x128 .f32) : IVec S_ 1 :=
  let main_v0 : FVec F S1x100000x128 .f32 := Host.absf main_arg0
  let main_cst : FVec F S_ .f32 := constant S_ .f32 0x7F800000#32
  let main_v1 : FVec F S1x100000x128 .f32 := broadcastInDim S1x100000x128 ![] bcast_S_S1x100000x128 main_cst
  let main_v2 : IVec S1x100000x128 1 := cmpf .olt main_v0 main_v1
  let main_c : IVec S_ 1 := constantI S_ 1 1#1
  let main_v3 : IVec S_ 1 := (fun x v => Host.reduce IntOp.andi x v reducesTo_S1x100000x128_S_d0_1_2 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S1x100000x128 : Shape := ⟨3, ![1, 100000, 128]⟩
abbrev S2x640000 : Shape := ⟨2, ![2, 640000]⟩
abbrev S3x128x128 : Shape := ⟨3, ![3, 128, 128]⟩
abbrev S3x128 : Shape := ⟨2, ![3, 128]⟩
abbrev S100000x128 : Shape := ⟨2, ![100000, 128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩
abbrev S740000x128 : Shape := ⟨2, ![740000, 128]⟩

abbrev nBuf : Space → Nat
  | .hbm => 111
  | .vmem => 22
  | .smem => 0
  | _ => 0

abbrev bufTy : (tb : Table) → Fin (tcTables nBuf tb) → BufTy
  | .hbm, ⟨0, _⟩ => ⟨S1x100000x128, .f32⟩
  | .hbm, ⟨1, _⟩ => ⟨S2x640000, .i32⟩
  | .hbm, ⟨2, _⟩ => ⟨S3x128x128, .f32⟩
  | .hbm, ⟨3, _⟩ => ⟨S3x128, .f32⟩
  | .hbm, ⟨4, _⟩ => ⟨S100000x128, .f32⟩
  | .hbm, ⟨5, _⟩ => ⟨S100000, .i32⟩
  | .hbm, ⟨6, _⟩ => ⟨S1x640000, .i32⟩
  | .hbm, ⟨7, _⟩ => ⟨S640000, .i32⟩
  | .hbm, ⟨8, _⟩ => ⟨S740000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S_, .f32⟩
  | .hbm, ⟨13, _⟩ => ⟨S740000, .f32⟩
  | .hbm, ⟨14, _⟩ => ⟨S_, .f32⟩
  | .hbm, ⟨15, _⟩ => ⟨S100000, .f32⟩
  | .hbm, ⟨16, _⟩ => ⟨S740000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S740000, .i32⟩
  | .hbm, ⟨28, _⟩ => ⟨S740000, .i1⟩
  | .hbm, ⟨29, _⟩ => ⟨S_, .i32⟩
  | .hbm, ⟨30, _⟩ => ⟨S740000, .i32⟩
  | .hbm, ⟨31, _⟩ => ⟨S740000, .i32⟩
  | .hbm, ⟨32, _⟩ => ⟨S740000, .i32⟩
  | .hbm, ⟨33, _⟩ => ⟨S740000x1, .i32⟩
  | .hbm, ⟨34, _⟩ => ⟨S740000, .f32⟩
  | .hbm, ⟨35, _⟩ => ⟨S_, .i32⟩
  | .hbm, ⟨36, _⟩ => ⟨S740000, .i32⟩
  | .hbm, ⟨37, _⟩ => ⟨S740000, .i1⟩
  | .hbm, ⟨38, _⟩ => ⟨S_, .i32⟩
  | .hbm, ⟨39, _⟩ => ⟨S740000, .i32⟩
  | .hbm, ⟨40, _⟩ => ⟨S740000, .i32⟩
  | .hbm, ⟨41, _⟩ => ⟨S740000, .i32⟩
  | .hbm, ⟨42, _⟩ => ⟨S740000x1, .i32⟩
  | .hbm, ⟨43, _⟩ => ⟨S740000, .f32⟩
  | .hbm, ⟨44, _⟩ => ⟨S740000, .f32⟩
  | .hbm, ⟨45, _⟩ => ⟨S740000x1, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S1x128, .f32⟩
  | .hbm, ⟨50, _⟩ => ⟨S128, .f32⟩
  | .hbm, ⟨51, _⟩ => ⟨S1x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S1x128x128, .f32⟩
  | .hbm, ⟨56, _⟩ => ⟨S128x128, .f32⟩
  | .hbm, ⟨57, _⟩ => ⟨S100000x128, .f32⟩
  | .hbm, ⟨58, _⟩ => ⟨S_, .i32⟩
  | .hbm, ⟨59, _⟩ => ⟨S740000, .i32⟩
  | .hbm, ⟨60, _⟩ => ⟨S740000, .i1⟩
  | .hbm, ⟨61, _⟩ => ⟨S_, .i32⟩
  | .hbm, ⟨62, _⟩ => ⟨S740000, .i32⟩
  | .hbm, ⟨63, _⟩ => ⟨S740000, .i32⟩
  | .hbm, ⟨64, _⟩ => ⟨S740000, .i32⟩
  | .hbm, ⟨65, _⟩ => ⟨S740000x1, .i32⟩
  | .hbm, ⟨66, _⟩ => ⟨S740000x128, .f32⟩
  | .hbm, ⟨67, _⟩ => ⟨S740000x128, .f32⟩
  | .hbm, ⟨68, _⟩ => ⟨S740000x128, .f32⟩
  | .hbm, ⟨69, _⟩ => ⟨S_, .f32⟩
  | .hbm, ⟨70, _⟩ => ⟨S100000x128, .f32⟩
  | .hbm, ⟨71, _⟩ => ⟨S740000x1, .i32⟩
  | .hbm, ⟨72, _⟩ => ⟨S100000x128, .f32⟩
  | .hbm, ⟨73, _⟩ => ⟨S1x128x128, .f32⟩
  | .hbm, ⟨74, _⟩ => ⟨S128x128, .f32⟩
  | .hbm, ⟨75, _⟩ => ⟨S100000x128, .f32⟩
  | .hbm, ⟨76, _⟩ => ⟨S_, .i32⟩
  | .hbm, ⟨77, _⟩ => ⟨S740000, .i32⟩
  | .hbm, ⟨78, _⟩ => ⟨S740000, .i1⟩
  | .hbm, ⟨79, _⟩ => ⟨S_, .i32⟩
  | .hbm, ⟨80, _⟩ => ⟨S740000, .i32⟩
  | .hbm, ⟨81, _⟩ => ⟨S740000, .i32⟩
  | .hbm, ⟨82, _⟩ => ⟨S740000, .i32⟩
  | .hbm, ⟨83, _⟩ => ⟨S740000x1, .i32⟩
  | .hbm, ⟨84, _⟩ => ⟨S740000x128, .f32⟩
  | .hbm, ⟨85, _⟩ => ⟨S740000x128, .f32⟩
  | .hbm, ⟨86, _⟩ => ⟨S740000x128, .f32⟩
  | .hbm, ⟨87, _⟩ => ⟨S_, .f32⟩
  | .hbm, ⟨88, _⟩ => ⟨S100000x128, .f32⟩
  | .hbm, ⟨89, _⟩ => ⟨S740000x1, .i32⟩
  | .hbm, ⟨90, _⟩ => ⟨S100000x128, .f32⟩
  | .hbm, ⟨91, _⟩ => ⟨S1x128x128, .f32⟩
  | .hbm, ⟨92, _⟩ => ⟨S128x128, .f32⟩
  | .hbm, ⟨93, _⟩ => ⟨S100000x128, .f32⟩
  | .hbm, ⟨94, _⟩ => ⟨S_, .i32⟩
  | .hbm, ⟨95, _⟩ => ⟨S740000, .i32⟩
  | .hbm, ⟨96, _⟩ => ⟨S740000, .i1⟩
  | .hbm, ⟨97, _⟩ => ⟨S_, .i32⟩
  | .hbm, ⟨98, _⟩ => ⟨S740000, .i32⟩
  | .hbm, ⟨99, _⟩ => ⟨S740000, .i32⟩
  | .hbm, ⟨100, _⟩ => ⟨S740000, .i32⟩
  | .hbm, ⟨101, _⟩ => ⟨S740000x1, .i32⟩
  | .hbm, ⟨102, _⟩ => ⟨S740000x128, .f32⟩
  | .hbm, ⟨103, _⟩ => ⟨S740000x128, .f32⟩
  | .hbm, ⟨104, _⟩ => ⟨S740000x128, .f32⟩
  | .hbm, ⟨105, _⟩ => ⟨S_, .f32⟩
  | .hbm, ⟨106, _⟩ => ⟨S100000x128, .f32⟩
  | .hbm, ⟨107, _⟩ => ⟨S740000x1, .i32⟩
  | .hbm, ⟨108, _⟩ => ⟨S100000x128, .f32⟩
  | .hbm, ⟨109, _⟩ => ⟨S100000x128, .f32⟩
  | .hbm, ⟨110, _⟩ => ⟨S1x100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_9 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_12 : Ref sig .tc := ⟨.hbm, 94, rfl⟩
abbrev main_v74 : Ref sig .tc := ⟨.hbm, 95, rfl⟩
abbrev main_v75 : Ref sig .tc := ⟨.hbm, 96, rfl⟩
abbrev main_c_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S1x100000x128_S100000x128 : S1x100000x128.ShapeCasts S100000x128
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S3x128_S1x128_0_0 : S3x128.Slices ![0, 0] S1x128
  shapeCasts_S1x128_S128 : S1x128.ShapeCasts S128
  shapeCasts_S128_S1x128 : S128.ShapeCasts S1x128
  slices_S3x128_S1x128_1_0 : S3x128.Slices ![1, 0] S1x128
  slices_S3x128_S1x128_2_0 : S3x128.Slices ![2, 0] S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S3x128x128_S1x128x128_1_0_0 : S3x128x128.Slices ![1, 0, 0] S1x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_2_0_0 : S3x128x128.Slices ![2, 0, 0] S1x128x128
  bcast_S100000x128_S1x100000x128_1_2 : S100000x128.BroadcastsInDim S1x100000x128 (![1, 2] : Fin 2 → Fin S1x100000x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S1x100000x128 : Shape := ⟨3, ![1, 100000, 128]⟩
abbrev S2x640000 : Shape := ⟨2, ![2, 640000]⟩
abbrev S3x128x128 : Shape := ⟨3, ![3, 128, 128]⟩
abbrev S3x128 : Shape := ⟨2, ![3, 128]⟩
abbrev S100000x128 : Shape := ⟨2, ![100000, 128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S740000x128 : Shape := ⟨2, ![740000, 128]⟩
abbrev S1x128 : Shape := ⟨2, ![1, 128]⟩
abbrev S128 : Shape := ⟨1, ![128]⟩

abbrev nBuf : Space → Nat
  | .hbm => 125
  | .vmem => 0
  | .smem => 0
  | _ => 0

abbrev bufTy : (tb : Table) → Fin (tcTables nBuf tb) → BufTy
  | .hbm, ⟨0, _⟩ => ⟨S1x100000x128, .f32⟩
  | .hbm, ⟨1, _⟩ => ⟨S2x640000, .i32⟩
  | .hbm, ⟨2, _⟩ => ⟨S3x128x128, .f32⟩
  | .hbm, ⟨3, _⟩ => ⟨S3x128, .f32⟩
  | .hbm, ⟨4, _⟩ => ⟨S100000x128, .f32⟩
  | .hbm, ⟨5, _⟩ => ⟨S100000, .i32⟩
  | .hbm, ⟨6, _⟩ => ⟨S1x640000, .i32⟩
  | .hbm, ⟨7, _⟩ => ⟨S640000, .i32⟩
  | .hbm, ⟨8, _⟩ => ⟨S740000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S_, .f32⟩
  | .hbm, ⟨13, _⟩ => ⟨S740000, .f32⟩
  | .hbm, ⟨14, _⟩ => ⟨S_, .f32⟩
  | .hbm, ⟨15, _⟩ => ⟨S100000, .f32⟩
  | .hbm, ⟨16, _⟩ => ⟨S740000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S740000, .i32⟩
  | .hbm, ⟨28, _⟩ => ⟨S740000, .i1⟩
  | .hbm, ⟨29, _⟩ => ⟨S_, .i32⟩
  | .hbm, ⟨30, _⟩ => ⟨S740000, .i32⟩
  | .hbm, ⟨31, _⟩ => ⟨S740000, .i32⟩
  | .hbm, ⟨32, _⟩ => ⟨S740000, .i32⟩
  | .hbm, ⟨33, _⟩ => ⟨S740000x1, .i32⟩
  | .hbm, ⟨34, _⟩ => ⟨S740000, .f32⟩
  | .hbm, ⟨35, _⟩ => ⟨S_, .i32⟩
  | .hbm, ⟨36, _⟩ => ⟨S740000, .i32⟩
  | .hbm, ⟨37, _⟩ => ⟨S740000, .i1⟩
  | .hbm, ⟨38, _⟩ => ⟨S_, .i32⟩
  | .hbm, ⟨39, _⟩ => ⟨S740000, .i32⟩
  | .hbm, ⟨40, _⟩ => ⟨S740000, .i32⟩
  | .hbm, ⟨41, _⟩ => ⟨S740000, .i32⟩
  | .hbm, ⟨42, _⟩ => ⟨S740000x1, .i32⟩
  | .hbm, ⟨43, _⟩ => ⟨S740000, .f32⟩
  | .hbm, ⟨44, _⟩ => ⟨S740000, .f32⟩
  | .hbm, ⟨45, _⟩ => ⟨S740000x1, .f32⟩
  | .hbm, ⟨46, _⟩ => ⟨S1x128x128, .f32⟩
  | .hbm, ⟨47, _⟩ => ⟨S128x128, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x128, .f32⟩
  | .hbm, ⟨59, _⟩ => ⟨S740000x128, .f32⟩
  | .hbm, ⟨60, _⟩ => ⟨S_, .f32⟩
  | .hbm, ⟨61, _⟩ => ⟨S100000x128, .f32⟩
  | .hbm, ⟨62, _⟩ => ⟨S740000x1, .i32⟩
  | .hbm, ⟨63, _⟩ => ⟨S100000x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S1x128x128, .f32⟩
  | .hbm, ⟨73, _⟩ => ⟨S128x128, .f32⟩
  | .hbm, ⟨74, _⟩ => ⟨S100000x128, .f32⟩
  | .hbm, ⟨75, _⟩ => ⟨S_, .i32⟩
  | .hbm, ⟨76, _⟩ => ⟨S740000, .i32⟩
  | .hbm, ⟨77, _⟩ => ⟨S740000, .i1⟩
  | .hbm, ⟨78, _⟩ => ⟨S_, .i32⟩
  | .hbm, ⟨79, _⟩ => ⟨S740000, .i32⟩
  | .hbm, ⟨80, _⟩ => ⟨S740000, .i32⟩
  | .hbm, ⟨81, _⟩ => ⟨S740000, .i32⟩
  | .hbm, ⟨82, _⟩ => ⟨S740000x1, .i32⟩
  | .hbm, ⟨83, _⟩ => ⟨S740000x128, .f32⟩
  | .hbm, ⟨84, _⟩ => ⟨S740000x128, .f32⟩
  | .hbm, ⟨85, _⟩ => ⟨S740000x128, .f32⟩
  | .hbm, ⟨86, _⟩ => ⟨S_, .f32⟩
  | .hbm, ⟨87, _⟩ => ⟨S100000x128, .f32⟩
  | .hbm, ⟨88, _⟩ => ⟨S740000x1, .i32⟩
  | .hbm, ⟨89, _⟩ => ⟨S100000x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S1x128x128, .f32⟩
  | .hbm, ⟨99, _⟩ => ⟨S128x128, .f32⟩
  | .hbm, ⟨100, _⟩ => ⟨S100000x128, .f32⟩
  | .hbm, ⟨101, _⟩ => ⟨S_, .i32⟩
  | .hbm, ⟨102, _⟩ => ⟨S740000, .i32⟩
  | .hbm, ⟨103, _⟩ => ⟨S740000, .i1⟩
  | .hbm, ⟨104, _⟩ => ⟨S_, .i32⟩
  | .hbm, ⟨105, _⟩ => ⟨S740000, .i32⟩
  | .hbm, ⟨106, _⟩ => ⟨S740000, .i32⟩
  | .hbm, ⟨107, _⟩ => ⟨S740000, .i32⟩
  | .hbm, ⟨108, _⟩ => ⟨S740000x1, .i32⟩
  | .hbm, ⟨109, _⟩ => ⟨S740000x128, .f32⟩
  | .hbm, ⟨110, _⟩ => ⟨S740000x128, .f32⟩
  | .hbm, ⟨111, _⟩ => ⟨S740000x128, .f32⟩
  | .hbm, ⟨112, _⟩ => ⟨S_, .f32⟩
  | .hbm, ⟨113, _⟩ => ⟨S100000x128, .f32⟩
  | .hbm, ⟨114, _⟩ => ⟨S740000x1, .i32⟩
  | .hbm, ⟨115, _⟩ => ⟨S100000x128, .f32⟩
  | .hbm, ⟨116, _⟩ => ⟨S1x128, .f32⟩
  | .hbm, ⟨117, _⟩ => ⟨S128, .f32⟩
  | .hbm, ⟨118, _⟩ => ⟨S1x128, .f32⟩
  | .hbm, ⟨119, _⟩ => ⟨S100000x128, .f32⟩
  | .hbm, ⟨120, _⟩ => ⟨S100000x128, .f32⟩
  | .hbm, ⟨121, _⟩ => ⟨S_, .f32⟩
  | .hbm, ⟨122, _⟩ => ⟨S100000x128, .f32⟩
  | .hbm, ⟨123, _⟩ => ⟨S100000x128, .f32⟩
  | .hbm, ⟨124, _⟩ => ⟨S1x100000x128, .f32⟩
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call1_cst : Ref sig .tc := ⟨.hbm, 69, rfl⟩
abbrev main_call1_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call2_cst : Ref sig .tc := ⟨.hbm, 95, rfl⟩
abbrev main_call2_v0 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_12 : Ref sig .tc := ⟨.hbm, 101, rfl⟩
abbrev main_v77 : Ref sig .tc := ⟨.hbm, 102, rfl⟩
abbrev main_v78 : Ref sig .tc := ⟨.hbm, 103, rfl⟩
abbrev main_c_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_14 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call3_cst : Ref sig .tc := ⟨.hbm, 121, rfl⟩
abbrev main_call3_v0 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]

class Facts₀ : Prop where
  shapeCasts_S1x100000x128_S100000x128 : S1x100000x128.ShapeCasts S100000x128
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S3x128x128_S1x128x128_0_0_0 : S3x128x128.Slices ![0, 0, 0] S1x128x128
  shapeCasts_S1x128x128_S128x128 : S1x128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000x128_S1x100000x128_1_2 : S100000x128.BroadcastsInDim S1x100000x128 (![1, 2] : Fin 2 → Fin S1x100000x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.RunValue.lean ====
/-
  The run of the idealized kernel program with its result named.

  The program is eleven segments: stretches of host operations and four tiled kernel launches. Every weakly fair
  execution terminates without a fault; at the end each buffer that outlives the launches holds the last segment
  boundary's contents, so the result array holds those contents at the result's buffer, and the four argument
  arrays are as launched. What those contents are, as a function of the arguments, is read off the boundaries in
  the modules that import this one.
-/
import proofs.«155915_j65463891526244_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_value : θ_run defs (onTc (τ := τ) (main (F := F))) ⟨m, fun _ => 0, ρ⟩ (fun r => ∀ c : Dev nD,
      r.2.mem ((c.tc : Thread nD τ).loc main_v87) = W11 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v87 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.RunValue

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.Layers.lean ====
/-
  The layers of a three-layer graph convolution, as functions of whole arrays, and each read at an index.

  A node matrix is `[100000, 128]`. One layer multiplies the rows by a `[128, 128]` weight (`dense`), aggregates
  the rows along the edges of the graph with the symmetric normalisation (`aggOf`, which is never opened: both
  programs apply the same gather, scaling and segment sum to whatever rows they are given), adds a bias row and clamps
  at zero (`biasRelu`). On the extended reals, with format changes the identity:
    `dense x w (r, q)      = ∑ k, x (r, k) * w (k, q)`
    `biasRelu a b (r, k)   = max (a (r, k) + b (0, k)) 0`.
-/
import proofs.«155915_j65463891526244_1_alg».proof.KernelIdeal
import proofs.«155915_j65463891526244_1_alg».proof.ReferenceIdeal
import proofs.«155915_j65463891526244_1_alg».proof.Proof.Gen.KernelIdeal
import proofs.«155915_j65463891526244_1_alg».proof.Proof.Gen.ReferenceIdeal
import proofs.«155915_j65463891526244_1_alg».proof.Proof.LibPlainDotGeneral
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx

/-! ## The dense layer and the bias-and-clamp, in the reference's operations -/

section Reference
open Cert.ReferenceIdeal Cert.ReferenceIdeal.Gen

/-- Rows times a weight matrix, as the reference computes it on the host. -/
def dense (x : FVec Ideal S100000x128 .f32) (w : FVec Ideal S128x128 .f32) : FVec Ideal S100000x128 .f32 :=
  Host.dotGeneral dot_S100000x128_S128x128_S100000x128_1_0_0_1_n_n none x w

/-- A bias row added to every node's row, then the clamp at zero. -/
def biasRelu (a : FVec Ideal S100000x128 .f32) (b : FVec Ideal S1x128 .f32) : FVec Ideal S100000x128 .f32 :=
  maximumf (addf a (broadcastInDim S100000x128 ![0, 1] bcast_S1x128_S100000x128_0_1 b))
    (broadcastInDim S100000x128 ![] bcast_S_S100000x128 (constant (F := Ideal) S_ .f32 0x00000000#32))

/-- Entry `(r, q)` of the dense layer is the sum over `k` of `x (r, k) * w (k, q)`. -/
theorem dense_apply (x : FVec Ideal S100000x128 .f32) (w : FVec Ideal S128x128 .f32) (r : Fin 100000) (q : Fin 128) :
    dense x w (ix2 r q) = ∑ k : Fin 128, x (ix2 r k) * w (ix2 k q) := by
  unfold dense
  simp only [Host.dotGeneral]
  exact Cert.Lib.PlainDotGeneral.dotGeneral_apply dot_S100000x128_S128x128_S100000x128_1_0_0_1_n_n rfl rfl rfl rfl rfl rfl _ _ x w r q

/-- Entry `(r, k)` of the biased, clamped matrix. -/
theorem biasRelu_apply (a : FVec Ideal S100000x128 .f32) (b : FVec Ideal S1x128 .f32) (r : Fin 100000) (k : Fin 128) :
    biasRelu a b (ix2 r k) = max (a (ix2 r k) + b (ix2 (0 : Fin 1) k)) 0 := by
  unfold biasRelu
  rw [maximumf_apply, addf_apply,
    broadcastInDim_apply ![0, 1] bcast_S1x128_S100000x128_0_1 b (ix2 r k) (ix2 (0 : Fin 1) k)
      (fun a => by match a with | ⟨0, _⟩ => rfl | ⟨1, _⟩ => rfl),
    broadcastInDim_apply ![] bcast_S_S100000x128 (constant (F := Ideal) S_ .f32 0x00000000#32) (ix2 r k) ix0
      (fun a => a.elim0),
    constant_apply, Ideal.ofBits_zero_f32]

end Reference

/-! ## The aggregation along the edges, in the kernel program's operations: one function, never opened -/

section Kernel
open Cert.KernelIdeal Cert.KernelIdeal.Gen

/-- The message sources: row 0 of the edge list, then one self loop per node. -/
def srcOf (ei : IVec S2x640000 32) : IVec S740000 32 :=
  concatenate S740000 0 [⟨S640000, shapeCast _ (extractStridedSlice S1x640000 ![0, 0] ei slices_S2x640000_S1x640000_0_0) shapeCasts_S1x640000_S640000⟩, ⟨S100000, iotaInDim S100000 32 0⟩] concatenates_S640000_S100000_S740000_d0

/-- The aggregation targets: row 1 of the edge list, then one self loop per node. -/
def dstOf (ei : IVec S2x640000 32) : IVec S740000 32 :=
  concatenate S740000 0 [⟨S640000, shapeCast _ (extractStridedSlice S1x640000 ![1, 0] ei slices_S2x640000_S1x640000_1_0) shapeCasts_S1x640000_S640000⟩, ⟨S100000, iotaInDim S100000 32 0⟩] concatenates_S640000_S100000_S740000_d0

/-- A negative index wrapped by the number of nodes, as the gather's lowering does. -/
def wrapOf (x : IVec S740000 32) : IVec S740000 32 :=
  select (cmpi .slt x (broadcastInDim S740000 ![] bcast_S_S740000 (constantI S_ 32 0#32)))
    (addi x (broadcastInDim S740000 ![] bcast_S_S740000 (constantI S_ 32 100000#32))) x

/-- The inverse square root of each node's in-degree (zero where the degree is not positive). -/
def dinvOf (dst : IVec S740000 32) : FVec Ideal S100000 .f32 :=
  select (cmpf .ogt (Host.scatterAdd scatter_S100000_S740000x1_S740000_n_0_0_1 (broadcastInDim S100000 ![] bcast_S_S100000 (constant (F := Ideal) S_ .f32 0x00000000#32)) (broadcastInDim S740000x1 ![0] bcast_S740000_S740000x1_0 dst) (broadcastInDim S740000 ![] bcast_S_S740000 (constant (F := Ideal) S_ .f32 0x3F800000#32))) (broadcastInDim S100000 ![] bcast_S_S100000 (constant (F := Ideal) S_ .f32 0x00000000#32)))
    (Host.rsqrt (Host.scatterAdd scatter_S100000_S740000x1_S740000_n_0_0_1 (broadcastInDim S100000 ![] bcast_S_S100000 (constant (F := Ideal) S_ .f32 0x00000000#32)) (broadcastInDim S740000x1 ![0] bcast_S740000_S740000x1_0 dst) (broadcastInDim S740000 ![] bcast_S_S740000 (constant (F := Ideal) S_ .f32 0x3F800000#32))))
    (broadcastInDim S100000 ![] bcast_S_S100000 (id (constant (F := Ideal) S_ .f32 0x00000000#32)))

/-- The weight of each message: the product of its two endpoints' inverse square-root degrees, as a column. -/
def normOf (src dst : IVec S740000 32) : FVec Ideal S740000x1 .f32 :=
  broadcastInDim S740000x1 ![0] bcast_S740000_S740000x1_0
    (mulf (Host.gather gather_S100000_S740000x1_S740000_n_0_n_n_0_1_1 (dinvOf dst) (broadcastInDim S740000x1 ![0] bcast_S740000_S740000x1_0 (wrapOf src)))
      (Host.gather gather_S100000_S740000x1_S740000_n_0_n_n_0_1_1 (dinvOf dst) (broadcastInDim S740000x1 ![0] bcast_S740000_S740000x1_0 (wrapOf dst))))

/-- The aggregation: gather each message's source row, scale it by the message's weight, and sum the messages of each
    target node. -/
def aggOf (src dst : IVec S740000 32) (nrm : FVec Ideal S740000x1 .f32) (hw : FVec Ideal S100000x128 .f32) : FVec Ideal S100000x128 .f32 :=
  Host.scatterAdd scatter_S100000x128_S740000x1_S740000x128_1_0_0_1
    (broadcastInDim S100000x128 ![] bcast_S_S100000x128 (constant (F := Ideal) S_ .f32 0x00000000#32))
    (broadcastInDim S740000x1 ![0] bcast_S740000_S740000x1_0 dst)
    (mulf (broadcastInDim S740000x128 ![0, 1] bcast_S740000x1_S740000x128_0_1 nrm)
      (Host.gather gather_S100000x128_S740000x1_S740000x128_1_0_n_n_0_1_1128 hw (broadcastInDim S740000x1 ![0] bcast_S740000_S740000x1_0 (wrapOf src))))

end Kernel

end Cert.Gcn

end
-- ==== Proof.LibRowLayout.lean ====
/-
  A vector laid out as a one-row matrix, two spellings.

  A `[n]` vector can be made a `[1, n]` matrix by a reshape or by a broadcast along a new leading axis
  (`broadcast_in_dim` with `dims = [1]`). Both read entry `k` of the vector at `(0, k)`, so they are the same matrix,
  for any element type and any length other than one (at length one the broadcast's unit-axis rule reads entry `0`,
  which is again the same entry, but the statement here leaves that case out).
-/
import Idealize.ShloMosaic.Lib.Pipeline.Value

namespace Cert.Lib.RowLayout

open Idealize.ShloMosaic

/-- `shapeCast [1, n] v = broadcastInDim [1, n] ![1] v` for a vector `v` of length `n ≠ 1`: a program that reshapes a
    bias vector to a row and one that broadcasts it along a new leading axis hold the same row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ (![1] : Fin 1 → Fin 2) hb v := by
  funext j
  exact (shapeCast_addUnit_apply ![n] v hc j).trans
    (broadcastInDim_apply (![1] : Fin 1 → Fin 2) hb v j (fun a => j a.succ)
      (fun a => by match a with | ⟨0, _⟩ => exact (if_neg hn).symm)).symm

end Cert.Lib.RowLayout
-- ==== Proof.Program.lean ====
/-
  The whole three-layer network as one function of the four argument arrays.

  The node matrix is the first argument with its unit batch axis dropped; layer `l`'s weight is slab `l` of the
  third argument; its bias row is row `l` of the fourth. The network is
    `out = [ clamp (agg (dense (clamp (agg (dense (clamp (agg (dense nodes w0)) + b0)) w1)) + b1)) w2)) + b2) ]`
  with the unit batch axis put back. The bias row enters as a `[1, 128]` matrix: the kernel program reshapes the
  `[128]` row to it, the reference broadcasts the row along a new leading axis; the two are the same matrix.
-/
import proofs.«155915_j65463891526244_1_alg».proof.Proof.Layers
import proofs.«155915_j65463891526244_1_alg».proof.Proof.LibRowLayout

noncomputable section

namespace Cert.Gcn

open Idealize.ShloMosaic Idealize.ShloMosaic.ValueIdx

section Kernel
open Cert.KernelIdeal Cert.KernelIdeal.Gen

/-- The node matrix: the first argument without its unit batch axis. -/
def nodesOf (x : FVec Ideal S1x100000x128 .f32) : FVec Ideal S100000x128 .f32 :=
  shapeCast S100000x128 x shapeCasts_S1x100000x128_S100000x128

/-- The first layer's weight matrix. -/
def weight0Of (w : FVec Ideal S3x128x128 .f32) : FVec Ideal S128x128 .f32 :=
  shapeCast S128x128 (extractStridedSlice S1x128x128 ![0, 0, 0] w slices_S3x128x128_S1x128x128_0_0_0) shapeCasts_S1x128x128_S128x128
/-- The second layer's weight matrix. -/
def weight1Of (w : FVec Ideal S3x128x128 .f32) : FVec Ideal S128x128 .f32 :=
  shapeCast S128x128 (extractStridedSlice S1x128x128 ![1, 0, 0] w slices_S3x128x128_S1x128x128_1_0_0) shapeCasts_S1x128x128_S128x128
/-- The third layer's weight matrix. -/
def weight2Of (w : FVec Ideal S3x128x128 .f32) : FVec Ideal S128x128 .f32 :=
  shapeCast S128x128 (extractStridedSlice S1x128x128 ![2, 0, 0] w slices_S3x128x128_S1x128x128_2_0_0) shapeCasts_S1x128x128_S128x128

/-- The first layer's bias, as a vector. -/
def biasVec0Of (b : FVec Ideal S3x128 .f32) : FVec Ideal S128 .f32 :=
  shapeCast S128 (extractStridedSlice S1x128 ![0, 0] b slices_S3x128_S1x128_0_0) shapeCasts_S1x128_S128
/-- The second layer's bias, as a vector. -/
def biasVec1Of (b : FVec Ideal S3x128 .f32) : FVec Ideal S128 .f32 :=
  shapeCast S128 (extractStridedSlice S1x128 ![1, 0] b slices_S3x128_S1x128_1_0) shapeCasts_S1x128_S128
/-- The third layer's bias, as a vector. -/
def biasVec2Of (b : FVec Ideal S3x128 .f32) : FVec Ideal S128 .f32 :=
  shapeCast S128 (extractStridedSlice S1x128 ![2, 0] b slices_S3x128_S1x128_2_0) shapeCasts_S1x128_S128

/-- A bias vector laid out as the one-row matrix the kernels read. -/
def rowOf (v : FVec Ideal S128 .f32) : FVec Ideal S1x128 .f32 := shapeCast S1x128 v shapeCasts_S128_S1x128

/-- The network, with the three bias rows given. -/
def outWith (x : FVec Ideal S1x100000x128 .f32) (ei : IVec S2x640000 32) (w : FVec Ideal S3x128x128 .f32)
    (r0 r1 r2 : FVec Ideal S1x128 .f32) : FVec Ideal S1x100000x128 .f32 :=
  broadcastInDim S1x100000x128 ![1, 2] bcast_S100000x128_S1x100000x128_1_2
    (biasRelu (aggOf (srcOf ei) (dstOf ei) (normOf (srcOf ei) (dstOf ei))
      (dense (biasRelu (aggOf (srcOf ei) (dstOf ei) (normOf (srcOf ei) (dstOf ei))
        (dense (biasRelu (aggOf (srcOf ei) (dstOf ei) (normOf (srcOf ei) (dstOf ei))
          (dense (nodesOf x) (weight0Of w))) r0) (weight1Of w))) r1) (weight2Of w))) r2)

end Kernel

/-- A `[128]` vector reshaped to a one-row matrix is the vector broadcast along a new leading axis: both read entry
    `k` of the vector at `(0, k)`. -/
theorem rowOf_eq_broadcast (v : FVec Ideal Cert.KernelIdeal.S128 .f32) :
    rowOf v = broadcastInDim Cert.ReferenceIdeal.S1x128 ![1] Cert.ReferenceIdeal.Gen.bcast_S128_S1x128_1 v := by
  unfold rowOf
  exact Cert.Lib.RowLayout.shapeCast_eq_broadcastInDim (n := 128) (by decide) v _ _

end Cert.Gcn

end
-- ==== Proof.LibTypedRefCasts.lean ====
/-
  Typed references to host buffers: contents carried to the buffer's own type and back.

  A host operation of a called function is spelt over typed references: each operand's contents are carried from the
  buffer's type to the value's type on the way in, and the result back on the way out. When such operations are
  composed, every intermediate value appears carried out and straight back in. That round trip is the identity, for
  any signature, any element values and any buffer type; rewriting with it leaves the composed operations bare.
-/
import Idealize.ShloMosaic.Lib.StableHlo

namespace Cert.Lib.TypedRefCasts

open Idealize.ShloMosaic Idealize.ShloMosaic.StableHlo

/-- Contents carried to a typed reference's buffer type and back are the contents: `x.ofBuf (x.toBuf v) = v`.
    Use it as a rewrite rule (`simp only [ofBuf_toBuf]`) on the composed term of a list of typed-reference host
    operations, before comparing that term with anything: it removes every paired transport and leaves only the
    transports at the argument buffers and at the result. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.Lib.TypedRefCasts
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.Payloads.lean ====
/-
  What each kernel body stores, read at a row and a column, on the extended reals.

  The first kernel stores the product of its row block and the weight; the second and third add the bias row to
  the row block, clamp at zero and multiply by the weight; the last adds the bias row and clamps. Rounding the
  operands of a product to a shorter format is the identity here, a product into the zero accumulator is the plain
  sum over the contracted coordinate, and the zero literal is the real zero.
-/
import proofs.«155915_j65463891526244_1_alg».proof.Proof.Gen.KernelIdeal.Skeleton
import proofs.«155915_j65463891526244_1_alg».proof.Proof.LibPlainMatmul
import Idealize.ShloMosaic.Lib.ValueIdx
import Idealize.ShloMosaic.Lib.Pipeline.Value
import Idealize.ShloMosaic.PureOps.Ideal.Laws

noncomputable section

namespace Cert.Gcn.Payloads

open Cert.KernelIdeal Cert.KernelIdeal.Gen Idealize.ShloMosaic Idealize.ShloMosaic.ValueIdx

/-- The bias row repeated down the rows of a block, at `(p, k)`, is the row's entry `k`. -/
theorem biasRows_apply (b : FVec Ideal S1x128 .f32) (p : Fin 5000) (k : Fin 128) :
    broadcastTo S5000x128 b broadcasts_S1x128_S5000x128 (ix2 p k) = b (ix2 (0 : Fin 1) k) :=
  broadcastTo_apply b broadcasts_S1x128_S5000x128 (ix2 p k) (ix2 (0 : Fin 1) k)
    (fun a => by match a with | ⟨0, _⟩ => rfl | ⟨1, _⟩ => rfl)

/-- The zero literal the bodies clamp against is the real zero. -/
theorem zeroLit : Scalar.ofBits (F := Ideal) .f32 0x00000000#32 = 0 := Ideal.ofBits_zero_f32

/-- Rows biased and clamped, as the bodies compute them, at `(p, k)`. -/
theorem clampedRows_apply (x0 : FVec Ideal S5000x128 .f32) (b : FVec Ideal S1x128 .f32) (p : Fin 5000) (k : Fin 128) :
    maximumf (addf x0 (broadcastTo S5000x128 b broadcasts_S1x128_S5000x128))
      (broadcast S5000x128 (Scalar.ofBits (F := Ideal) .f32 0x00000000#32)) (ix2 p k)
      = max (x0 (ix2 p k) + b (ix2 (0 : Fin 1) k)) 0 := by
  rw [maximumf_apply, addf_apply, biasRows_apply, broadcast_apply, zeroLit]

/-- The first kernel's stored block: rows times the weight. -/
theorem matmulBody_apply (x : FVec Ideal S5000x128 .f32) (w : FVec Ideal S128x128 .f32) (p : Fin 5000) (q : Fin 128) :
    k0_pay1 (F := Ideal) x w (ix2 p q) = ∑ k : Fin 128, x (ix2 p k) * w (ix2 k q) := by
  unfold k0_pay1
  refine (Cert.Lib.PlainMatmul.matmul_zero_apply dot_S5000x128_S128x128_S5000x128_1_0_0_1_n_n rfl rfl rfl rfl rfl rfl none _ _ p q).trans ?_
  refine Finset.sum_congr rfl fun k _ => ?_
  rw [truncf_apply, truncf_apply, shapeCast_self, shapeCast_self]

/-- The second kernel's stored block: biased, clamped rows times the weight. -/
theorem biasReluMatmulBody1_apply (x0 : FVec Ideal S5000x128 .f32) (b : FVec Ideal S1x128 .f32) (w : FVec Ideal S128x128 .f32)
    (p : Fin 5000) (q : Fin 128) :
    k1_pay1 (F := Ideal) x0 b w (ix2 p q) = ∑ k : Fin 128, max (x0 (ix2 p k) + b (ix2 (0 : Fin 1) k)) 0 * w (ix2 k q) := by
  unfold k1_pay1
  refine (Cert.Lib.PlainMatmul.matmul_zero_apply dot_S5000x128_S128x128_S5000x128_1_0_0_1_n_n rfl rfl rfl rfl rfl rfl none _ _ p q).trans ?_
  refine Finset.sum_congr rfl fun k _ => ?_
  simp only [truncf_apply, shapeCast_self]
  exact congrArg (· * w (ix2 k q)) (clampedRows_apply x0 b p k)

/-- The third kernel's stored block: the same body. -/
theorem biasReluMatmulBody2_apply (x0 : FVec Ideal S5000x128 .f32) (b : FVec Ideal S1x128 .f32) (w : FVec Ideal S128x128 .f32)
    (p : Fin 5000) (q : Fin 128) :
    k2_pay1 (F := Ideal) x0 b w (ix2 p q) = ∑ k : Fin 128, max (x0 (ix2 p k) + b (ix2 (0 : Fin 1) k)) 0 * w (ix2 k q) := by
  unfold k2_pay1
  refine (Cert.Lib.PlainMatmul.matmul_zero_apply dot_S5000x128_S128x128_S5000x128_1_0_0_1_n_n rfl rfl rfl rfl rfl rfl none _ _ p q).trans ?_
  refine Finset.sum_congr rfl fun k _ => ?_
  simp only [truncf_apply, shapeCast_self]
  exact congrArg (· * w (ix2 k q)) (clampedRows_apply x0 b p k)

/-- The last kernel's stored block: biased, clamped rows. -/
theorem biasReluBody_apply (x0 : FVec Ideal S5000x128 .f32) (b : FVec Ideal S1x128 .f32) (p : Fin 5000) (q : Fin 128) :
    k3_pay1 (F := Ideal) x0 b (ix2 p q) = max (x0 (ix2 p q) + b (ix2 (0 : Fin 1) q)) 0 := by
  unfold k3_pay1
  simp only [shapeCast_self]
  exact clampedRows_apply x0 b p q

end Cert.Gcn.Payloads

end
-- ==== Proof.Region0.lean ====
/-
  The first kernel launch as one function of whole arrays.

  The launch walks twenty row blocks of 5000 rows. At point `t` the body sees rows `5000 t … 5000 t + 4999` of the
  node matrix and the whole weight matrix, and writes back the same rows of the product. Entry `(r, q)` of the
  product depends on row `r` of the node matrix only, and the twenty blocks tile the output (row `r` lies in block
  `r / 5000`), so after the launch the output array is the dense layer of the node matrix, whatever the buffers
  held when the launch was entered.
-/
import proofs.«155915_j65463891526244_1_alg».proof.Proof.Gen.KernelIdeal.Frame
import proofs.«155915_j65463891526244_1_alg».proof.Proof.Layers
import proofs.«155915_j65463891526244_1_alg».proof.Proof.Payloads

set_option maxRecDepth 16384

noncomputable section

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-block windows sit at block row `t`, every other window at the origin. -/
theorem indexMaps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rowBound (t : Fin cfg0.N) (p : Fin 5000) : t.val * 5000 + p.val < 100000 := by
  have ht : t.val < grid0.N := t.isLt
  have hN : grid0.N = 20 := N_0
  have hp := p.isLt
  omega

/-- Entry `(p, k)` of the row block at point `t` is entry `(5000 t + p, k)` of the matrix the launch reads. -/
theorem rowBlock_apply (c : Dev nD) (t : Fin cfg0.N) (p : Fin 5000) (k : Fin 128) :
    iblk0 V c 0 t (ix2 p k) = V c main_v0 (ix2 ⟨t.val * 5000 + p.val, rowBound t p⟩ k) := by
  show V c main_v0 (((cfg0.win 0).blk t).view.emb (ix2 p k)) = _
  refine congrArg _ (funext fun a => Fin.ext ?_)
  obtain ⟨e0, e1, -, -, -, -⟩ := indexMaps t
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block at every point is the whole weight matrix. -/
theorem weightBlock_apply (c : Dev nD) (t : Fin cfg0.N) (k q : Fin 128) :
    iblk0 V c 1 t (ix2 k q) = V c main_v42 (ix2 k q) := by
  show V c main_v42 (((cfg0.win 1).blk t).view.emb (ix2 k q)) = _
  refine congrArg _ (funext fun a => Fin.ext ?_)
  obtain ⟨-, -, e0, e1, -, -⟩ := indexMaps t
  match a with
  | ⟨0, _⟩ => show win0_1.index t (0 : Fin 2) * 128 + 1 * k.val = k.val; omega
  | ⟨1, _⟩ => show win0_1.index t (1 : Fin 2) * 128 + 1 * q.val = q.val; omega

/-- Entry `(p, q)` of the output block at point `t` sits at `(5000 t + p, q)` of the output array. -/
theorem outBlock_emb (t : Fin cfg0.N) (p : Fin 5000) (q : Fin 128) :
    ((cfg0.win 2).blk t).view.emb (ix2 p q) = ix2 ⟨t.val * 5000 + p.val, rowBound t p⟩ q := by
  refine funext fun a => Fin.ext ?_
  obtain ⟨-, -, -, -, e0, e1⟩ := indexMaps t
  match a with
  | ⟨0, _⟩ => show win0_2.index t (0 : Fin 2) * 5000 + 1 * p.val = t.val * 5000 + p.val; omega
  | ⟨1, _⟩ => show win0_2.index t (1 : Fin 2) * 128 + 1 * q.val = q.val; omega

/-- What point `t` writes back is block `t` of the layer's whole-array function. -/
theorem flushed (c : Dev nD) (t : Fin cfg0.N) :
    (dat0 V c).flushed 2 t = ((cfg0.win 2).blk t).view.read (Elt Ideal) (dense (V c main_v0) (V c main_v42)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = (dense (V c main_v0) (V c main_v42)) (((cfg0.win 2).blk t).view.emb (ix2 p q))
  rw [outBlock_emb t p q, dense_apply]
  refine (Payloads.matmulBody_apply _ _ p q).trans ?_
  refine Finset.sum_congr rfl fun k _ => ?_
  rw [rowBlock_apply V c t p k, weightBlock_apply V c t k q]

/-- An index is in point `t`'s output block iff each coordinate is in the block's range on its axis. -/
theorem mem_outBlock (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v43).slice (win0_2.rect t)).set ↔ _
  rw [View.set_slice_whole, Rect.mem_set_unit]
  exact Iff.rfl

/-- Every index of the output is in the block of the point its row divides to. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show _ < grid0.N; omega
  refine ⟨⟨(i 0).val / 5000, ht⟩, flush0_2 _, ?_⟩
  rw [mem_outBlock]
  obtain ⟨-, -, -, -, e0, e1⟩ := indexMaps ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e1]; omega

/-- After the launch the output array is the layer's function of the arrays the launch found. -/
theorem final (c : Dev nD) : (dat0 V c).arrAt 2 cfg0.N = dense (V c main_v0) (V c main_v42) :=
  (dat0 V c).arrAt_eq_of_cover 2 _ (fun t _ => flushed V c t) cover

end Cert.Gcn.Region0

end
-- ==== Proof.Region1.lean ====
/-
  The second kernel launch as one function of whole arrays.

  The launch walks twenty row blocks of 5000 rows. At point `t` the body sees rows `5000 t … 5000 t + 4999` of the
  aggregated matrix, the whole bias row and the whole weight matrix, and writes back the same rows of the output:
  the rows, biased and clamped at zero, times the weight. Entry `(r, q)` of the output depends on row `r` of the
  aggregated matrix only, and the twenty blocks tile the output (row `r` lies in block `r / 5000`), so after the
  launch the output array is the dense layer of the biased, clamped matrix, whatever the buffers held at entry.
-/
import proofs.«155915_j65463891526244_1_alg».proof.Proof.Gen.KernelIdeal.Frame
import proofs.«155915_j65463891526244_1_alg».proof.Proof.Layers
import proofs.«155915_j65463891526244_1_alg».proof.Proof.Payloads

set_option maxRecDepth 16384

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-block windows sit at block row `t`, every other window at the origin. -/
theorem indexMaps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem rowBound (t : Fin cfg1.N) (p : Fin 5000) : t.val * 5000 + p.val < 100000 := by
  have ht : t.val < grid1.N := t.isLt
  have hN : grid1.N = 20 := N_1
  have hp := p.isLt
  omega

/-- Entry `(p, k)` of the row block at point `t` is entry `(5000 t + p, k)` of the matrix the launch reads. -/
theorem rowBlock_apply (c : Dev nD) (t : Fin cfg1.N) (p : Fin 5000) (k : Fin 128) :
    iblk1 V c 0 t (ix2 p k) = V c main_v55 (ix2 ⟨t.val * 5000 + p.val, rowBound t p⟩ k) := by
  show V c main_v55 (((cfg1.win 0).blk t).view.emb (ix2 p k)) = _
  refine congrArg _ (funext fun a => Fin.ext ?_)
  obtain ⟨e0, e1, -, -, -, -, -, -⟩ := indexMaps t
  match a with
  | ⟨0, _⟩ => show win1_0.index t (0 : Fin 2) * 5000 + 1 * p.val = t.val * 5000 + p.val; omega
  | ⟨1, _⟩ => show win1_0.index t (1 : Fin 2) * 128 + 1 * k.val = k.val; omega

/-- The bias block at every point is the bias row. -/
theorem biasBlock_apply (c : Dev nD) (t : Fin cfg1.N) (k : Fin 128) :
    iblk1 V c 1 t (ix2 (0 : Fin 1) k) = V c main_v34 (ix2 (0 : Fin 1) k) := by
  show V c main_v34 (((cfg1.win 1).blk t).view.emb (ix2 (0 : Fin 1) k)) = _
  refine congrArg _ (funext fun a => Fin.ext ?_)
  obtain ⟨-, -, e0, e1, -, -, -, -⟩ := indexMaps t
  match a with
  | ⟨0, _⟩ => show win1_1.index t (0 : Fin 2) * 1 + 1 * 0 = 0; omega
  | ⟨1, _⟩ => show win1_1.index t (1 : Fin 2) * 128 + 1 * k.val = k.val; omega

/-- The weight block at every point is the whole weight matrix. -/
theorem weightBlock_apply (c : Dev nD) (t : Fin cfg1.N) (k q : Fin 128) :
    iblk1 V c 2 t (ix2 k q) = V c main_v57 (ix2 k q) := by
  show V c main_v57 (((cfg1.win 2).blk t).view.emb (ix2 k q)) = _
  refine congrArg _ (funext fun a => Fin.ext ?_)
  obtain ⟨-, -, -, -, e0, e1, -, -⟩ := indexMaps t
  match a with
  | ⟨0, _⟩ => show win1_2.index t (0 : Fin 2) * 128 + 1 * k.val = k.val; omega
  | ⟨1, _⟩ => show win1_2.index t (1 : Fin 2) * 128 + 1 * q.val = q.val; omega

/-- Entry `(p, q)` of the output block at point `t` sits at `(5000 t + p, q)` of the output array. -/
theorem outBlock_emb (t : Fin cfg1.N) (p : Fin 5000) (q : Fin 128) :
    ((cfg1.win 3).blk t).view.emb (ix2 p q) = ix2 ⟨t.val * 5000 + p.val, rowBound t p⟩ q := by
  refine funext fun a => Fin.ext ?_
  obtain ⟨-, -, -, -, -, -, e0, e1⟩ := indexMaps t
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point `t` writes back is block `t` of the layer's whole-array function. -/
theorem flushed (c : Dev nD) (t : Fin cfg1.N) :
    (dat1 V c).flushed 3 t = ((cfg1.win 3).blk t).view.read (Elt Ideal) (dense (biasRelu (V c main_v55) (V c main_v34)) (V c main_v57)) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S1x128) zeros, View.ld_unit_zero (S := S128x128) zeros]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = (dense (biasRelu (V c main_v55) (V c main_v34)) (V c main_v57)) (((cfg1.win 3).blk t).view.emb (ix2 p q))
  rw [outBlock_emb t p q, dense_apply]
  refine (Payloads.biasReluMatmulBody1_apply _ _ _ p q).trans ?_
  refine Finset.sum_congr rfl fun k _ => ?_
  rw [biasRelu_apply, rowBlock_apply V c t p k, biasBlock_apply V c t k, weightBlock_apply V c t k q]

/-- An index is in point `t`'s output block iff each coordinate is in the block's range on its axis. -/
theorem mem_outBlock (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v58).slice (win1_3.rect t)).set ↔ _
  rw [View.set_slice_whole, Rect.mem_set_unit]
  exact Iff.rfl

/-- Every index of the output is in the block of the point its row divides to. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  have ht : (i 0).val / 5000 < cfg1.N := by show _ < grid1.N; omega
  refine ⟨⟨(i 0).val / 5000, ht⟩, flush1_3 _, ?_⟩
  rw [mem_outBlock]
  obtain ⟨-, -, -, -, -, -, e0, e1⟩ := indexMaps ⟨(i 0).val / 5000, ht⟩
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]; omega

/-- After the launch the output array is the layer's function of the arrays the launch found. -/
theorem final (c : Dev nD) : (dat1 V c).arrAt 3 cfg1.N = dense (biasRelu (V c main_v55) (V c main_v34)) (V c main_v57) :=
  (dat1 V c).arrAt_eq_of_cover 3 _ (fun t _ => flushed V c t) cover

end Cert.Gcn.Region1

end
-- ==== Proof.Region2.lean ====
/-
  The third kernel launch as one function of whole arrays.

  The launch walks twenty row blocks of 5000 rows. At point `t` the body sees rows `5000 t … 5000 t + 4999` of the
  aggregated matrix, the whole bias row and the whole weight matrix, and writes back the same rows of the output:
  the rows, biased and clamped at zero, times the weight. Entry `(r, q)` of the output depends on row `r` of the
  aggregated matrix only, and the twenty blocks tile the output (row `r` lies in block `r / 5000`), so after the
  launch the output array is the dense layer of the biased, clamped matrix, whatever the buffers held at entry.
-/
import proofs.«155915_j65463891526244_1_alg».proof.Proof.Gen.KernelIdeal.Frame
import proofs.«155915_j65463891526244_1_alg».proof.Proof.Layers
import proofs.«155915_j65463891526244_1_alg».proof.Proof.Payloads

set_option maxRecDepth 16384

noncomputable section

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-block windows sit at block row `t`, every other window at the origin. -/
theorem indexMaps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem rowBound (t : Fin cfg2.N) (p : Fin 5000) : t.val * 5000 + p.val < 100000 := by
  have ht : t.val < grid2.N := t.isLt
  have hN : grid2.N = 20 := N_2
  have hp := p.isLt
  omega

/-- Entry `(p, k)` of the row block at point `t` is entry `(5000 t + p, k)` of the matrix the launch reads. -/
theorem rowBlock_apply (c : Dev nD) (t : Fin cfg2.N) (p : Fin 5000) (k : Fin 128) :
    iblk2 V c 0 t (ix2 p k) = V c main_v70 (ix2 ⟨t.val * 5000 + p.val, rowBound t p⟩ k) := by
  show V c main_v70 (((cfg2.win 0).blk t).view.emb (ix2 p k)) = _
  refine congrArg _ (funext fun a => Fin.ext ?_)
  obtain ⟨e0, e1, -, -, -, -, -, -⟩ := indexMaps t
  match a with
  | ⟨0, _⟩ => show win2_0.index t (0 : Fin 2) * 5000 + 1 * p.val = t.val * 5000 + p.val; omega
  | ⟨1, _⟩ => show win2_0.index t (1 : Fin 2) * 128 + 1 * k.val = k.val; omega

/-- The bias block at every point is the bias row. -/
theorem biasBlock_apply (c : Dev nD) (t : Fin cfg2.N) (k : Fin 128) :
    iblk2 V c 1 t (ix2 (0 : Fin 1) k) = V c main_v37 (ix2 (0 : Fin 1) k) := by
  show V c main_v37 (((cfg2.win 1).blk t).view.emb (ix2 (0 : Fin 1) k)) = _
  refine congrArg _ (funext fun a => Fin.ext ?_)
  obtain ⟨-, -, e0, e1, -, -, -, -⟩ := indexMaps t
  match a with
  | ⟨0, _⟩ => show win2_1.index t (0 : Fin 2) * 1 + 1 * 0 = 0; omega
  | ⟨1, _⟩ => show win2_1.index t (1 : Fin 2) * 128 + 1 * k.val = k.val; omega

/-- The weight block at every point is the whole weight matrix. -/
theorem weightBlock_apply (c : Dev nD) (t : Fin cfg2.N) (k q : Fin 128) :
    iblk2 V c 2 t (ix2 k q) = V c main_v72 (ix2 k q) := by
  show V c main_v72 (((cfg2.win 2).blk t).view.emb (ix2 k q)) = _
  refine congrArg _ (funext fun a => Fin.ext ?_)
  obtain ⟨-, -, -, -, e0, e1, -, -⟩ := indexMaps t
  match a with
  | ⟨0, _⟩ => show win2_2.index t (0 : Fin 2) * 128 + 1 * k.val = k.val; omega
  | ⟨1, _⟩ => show win2_2.index t (1 : Fin 2) * 128 + 1 * q.val = q.val; omega

/-- Entry `(p, q)` of the output block at point `t` sits at `(5000 t + p, q)` of the output array. -/
theorem outBlock_emb (t : Fin cfg2.N) (p : Fin 5000) (q : Fin 128) :
    ((cfg2.win 3).blk t).view.emb (ix2 p q) = ix2 ⟨t.val * 5000 + p.val, rowBound t p⟩ q := by
  refine funext fun a => Fin.ext ?_
  obtain ⟨-, -, -, -, -, -, e0, e1⟩ := indexMaps t
  match a with
  | ⟨0, _⟩ => show win2_3.index t (0 : Fin 2) * 5000 + 1 * p.val = t.val * 5000 + p.val; omega
  | ⟨1, _⟩ => show win2_3.index t (1 : Fin 2) * 128 + 1 * q.val = q.val; omega

/-- What point `t` writes back is block `t` of the layer's whole-array function. -/
theorem flushed (c : Dev nD) (t : Fin cfg2.N) :
    (dat2 V c).flushed 3 t = ((cfg2.win 3).blk t).view.read (Elt Ideal) (dense (biasRelu (V c main_v70) (V c main_v37)) (V c main_v72)) := by
  show (cfg2.win 3).cut (grid2.coords t) ((dat2 V c).after 3 t) = _
  rw [after2_3]
  unfold out2_3
  rw [View.canon_unit_zero zeros]
  simp only [View.ld_unit_zero (S := S5000x128) zeros, View.ld_unit_zero (S := S1x128) zeros, View.ld_unit_zero (S := S128x128) zeros]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = (dense (biasRelu (V c main_v70) (V c main_v37)) (V c main_v72)) (((cfg2.win 3).blk t).view.emb (ix2 p q))
  rw [outBlock_emb t p q, dense_apply]
  refine (Payloads.biasReluMatmulBody2_apply _ _ _ p q).trans ?_
  refine Finset.sum_congr rfl fun k _ => ?_
  rw [biasRelu_apply, rowBlock_apply V c t p k, biasBlock_apply V c t k, weightBlock_apply V c t k q]

/-- An index is in point `t`'s output block iff each coordinate is in the block's range on its axis. -/
theorem mem_outBlock (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v73).slice (win2_3.rect t)).set ↔ _
  rw [View.set_slice_whole, Rect.mem_set_unit]
  exact Iff.rfl

/-- Every index of the output is in the block of the point its row divides to. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  have ht : (i 0).val / 5000 < cfg2.N := by show _ < grid2.N; omega
  refine ⟨⟨(i 0).val / 5000, ht⟩, flush2_3 _, ?_⟩
  rw [mem_outBlock]
  obtain ⟨-, -, -, -, -, -, e0, e1⟩ := indexMaps ⟨(i 0).val / 5000, ht⟩
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e1]; omega

/-- After the launch the output array is the layer's function of the arrays the launch found. -/
theorem final (c : Dev nD) : (dat2 V c).arrAt 3 cfg2.N = dense (biasRelu (V c main_v70) (V c main_v37)) (V c main_v72) :=
  (dat2 V c).arrAt_eq_of_cover 3 _ (fun t _ => flushed V c t) cover

end Cert.Gcn.Region2

end
-- ==== Proof.Region3.lean ====
/-
  The last kernel launch as one function of whole arrays.

  The launch walks twenty row blocks of 5000 rows. At point `t` the body sees rows `5000 t … 5000 t + 4999` of the
  aggregated matrix and the whole bias row, and writes back the same rows of the output: each entry is the
  aggregated entry plus the bias entry of its column, clamped at zero. The twenty blocks tile the output (row `r`
  lies in block `r / 5000`), so after the launch the output array is the biased, clamped matrix, whatever the
  buffers held when the launch was entered.
-/
import proofs.«155915_j65463891526244_1_alg».proof.Proof.Gen.KernelIdeal.Frame
import proofs.«155915_j65463891526244_1_alg».proof.Proof.Layers
import proofs.«155915_j65463891526244_1_alg».proof.Proof.Payloads

set_option maxRecDepth 16384

noncomputable section

namespace Cert.Gcn.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-block windows sit at block row `t`, the bias row at the origin. -/
theorem indexMaps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem rowBound (t : Fin cfg3.N) (p : Fin 5000) : t.val * 5000 + p.val < 100000 := by
  have ht : t.val < grid3.N := t.isLt
  have hN : grid3.N = 20 := N_3
  have hp := p.isLt
  omega

/-- Entry `(p, k)` of the row block at point `t` is entry `(5000 t + p, k)` of the aggregated matrix. -/
theorem rowBlock_apply (c : Dev nD) (t : Fin cfg3.N) (p : Fin 5000) (k : Fin 128) :
    iblk3 V c 0 t (ix2 p k) = V c main_v85 (ix2 ⟨t.val * 5000 + p.val, rowBound t p⟩ k) := by
  show V c main_v85 (((cfg3.win 0).blk t).view.emb (ix2 p k)) = _
  refine congrArg _ (funext fun a => Fin.ext ?_)
  obtain ⟨e0, e1, -, -, -, -⟩ := indexMaps t
  match a with
  | ⟨0, _⟩ => show win3_0.index t (0 : Fin 2) * 5000 + 1 * p.val = t.val * 5000 + p.val; omega
  | ⟨1, _⟩ => show win3_0.index t (1 : Fin 2) * 128 + 1 * k.val = k.val; omega

/-- The bias block at every point is the bias row. -/
theorem biasBlock_apply (c : Dev nD) (t : Fin cfg3.N) (k : Fin 128) :
    iblk3 V c 1 t (ix2 (0 : Fin 1) k) = V c main_v40 (ix2 (0 : Fin 1) k) := by
  show V c main_v40 (((cfg3.win 1).blk t).view.emb (ix2 (0 : Fin 1) k)) = _
  refine congrArg _ (funext fun a => Fin.ext ?_)
  obtain ⟨-, -, e0, e1, -, -⟩ := indexMaps t
  match a with
  | ⟨0, _⟩ => show win3_1.index t (0 : Fin 2) * 1 + 1 * 0 = 0; omega
  | ⟨1, _⟩ => show win3_1.index t (1 : Fin 2) * 128 + 1 * k.val = k.val; omega

/-- Entry `(p, q)` of the output block at point `t` sits at `(5000 t + p, q)` of the output array. -/
theorem outBlock_emb (t : Fin cfg3.N) (p : Fin 5000) (q : Fin 128) :
    ((cfg3.win 2).blk t).view.emb (ix2 p q) = ix2 ⟨t.val * 5000 + p.val, rowBound t p⟩ q := by
  refine funext fun a => Fin.ext ?_
  obtain ⟨-, -, -, -, e0, e1⟩ := indexMaps t
  match a with
  | ⟨0, _⟩ => show win3_2.index t (0 : Fin 2) * 5000 + 1 * p.val = t.val * 5000 + p.val; omega
  | ⟨1, _⟩ => show win3_2.index t (1 : Fin 2) * 128 + 1 * q.val = q.val; omega

/-- What point `t` writes back is block `t` of the biased, clamped matrix. -/
theorem flushed (c : Dev nD) (t : Fin cfg3.N) :
    (dat3 V c).flushed 2 t = ((cfg3.win 2).blk t).view.read (Elt Ideal) (biasRelu (V c main_v85) (V c main_v40)) := by
  show (cfg3.win 2).cut (grid3.coords t) ((dat3 V c).after 2 t) = _
  rw [after3_2]
  unfold out3_2
  rw [View.canon_unit_zero zeros]
  simp only [View.ld_unit_zero (S := S5000x128) zeros, View.ld_unit_zero (S := S1x128) zeros]
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = biasRelu (V c main_v85) (V c main_v40) (((cfg3.win 2).blk t).view.emb (ix2 p q))
  rw [outBlock_emb t p q, biasRelu_apply]
  refine (Payloads.biasReluBody_apply _ _ p q).trans ?_
  rw [rowBlock_apply V c t p q, biasBlock_apply V c t q]

/-- An index is in point `t`'s output block iff each coordinate is in the block's range on its axis. -/
theorem mem_outBlock (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v86).slice (win3_2.rect t)).set ↔ _
  rw [View.set_slice_whole, Rect.mem_set_unit]
  exact Iff.rfl

/-- Every index of the output is in the block of the point its row divides to. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 20 := N_3
  have ht : (i 0).val / 5000 < cfg3.N := by show _ < grid3.N; omega
  refine ⟨⟨(i 0).val / 5000, ht⟩, flush3_2 _, ?_⟩
  rw [mem_outBlock]
  obtain ⟨-, -, -, -, e0, e1⟩ := indexMaps ⟨(i 0).val / 5000, ht⟩
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e1]; omega

/-- After the launch the output array is the biased, clamped matrix of the arrays the launch found. -/
theorem final (c : Dev nD) : (dat3 V c).arrAt 2 cfg3.N = biasRelu (V c main_v85) (V c main_v40) :=
  (dat3 V c).arrAt_eq_of_cover 2 _ (fun t _ => flushed V c t) cover

end Cert.Gcn.Region3

end
-- ==== Proof.Boundaries.lean ====
/-
  What the buffers hold at each segment boundary of the kernel program, read back to the argument arrays.

  Before the first launch the host operations lay out the node matrix, the message sources and targets (the edge
  list followed by one self loop per node), the messages' weights, the three bias rows and the first weight matrix.
  None of these is written again: a launch writes only its own output array and a later stretch only its own
  results, so each is carried unchanged to where it is read. Between launches a stretch gathers the launch's rows
  along the edges, scales and sums them (one function of the launch's output), and slices the next weight matrix.
  Each launch's output is its layer's function of the arrays it found. Composing these, the result buffer at the
  last boundary is the three-layer network of the arguments.
-/
import proofs.«155915_j65463891526244_1_alg».proof.Proof.Gen.KernelIdeal.Frame
import proofs.«155915_j65463891526244_1_alg».proof.Proof.Program
import proofs.«155915_j65463891526244_1_alg».proof.Proof.LibTypedRefCasts
import proofs.«155915_j65463891526244_1_alg».proof.Proof.Region0
import proofs.«155915_j65463891526244_1_alg».proof.Proof.Region1
import proofs.«155915_j65463891526244_1_alg».proof.Proof.Region2
import proofs.«155915_j65463891526244_1_alg».proof.Proof.Region3

set_option maxRecDepth 16384

noncomputable section

namespace Cert.Gcn.Boundary

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The host operations before the first launch, one stretch at a time, from any contents `X` -/

/-- The in-degree of every node (self loops included), as a float: one per message summed at its target. -/
def degOf (dst : IVec S740000 32) : FVec Ideal S100000 .f32 :=
  Host.scatterAdd scatter_S100000_S740000x1_S740000_n_0_0_1 (broadcastInDim S100000 ![] bcast_S_S100000 (constant (F := Ideal) S_ .f32 0x00000000#32))
    (broadcastInDim S740000x1 ![0] bcast_S740000_S740000x1_0 dst) (broadcastInDim S740000 ![] bcast_S_S740000 (constant (F := Ideal) S_ .f32 0x3F800000#32))

/-- The messages' weights from any per-node factor: the product of the factor at a message's two endpoints. -/
def normWith (dinv : FVec Ideal S100000 .f32) (src dst : IVec S740000 32) : FVec Ideal S740000x1 .f32 :=
  broadcastInDim S740000x1 ![0] bcast_S740000_S740000x1_0
    (mulf (Host.gather gather_S100000_S740000x1_S740000_n_0_n_n_0_1_1 dinv (broadcastInDim S740000x1 ![0] bcast_S740000_S740000x1_0 (wrapOf src)))
      (Host.gather gather_S100000_S740000x1_S740000_n_0_n_n_0_1_1 dinv (broadcastInDim S740000x1 ![0] bcast_S740000_S740000x1_0 (wrapOf dst))))

theorem dinvOf_eq (dst : IVec S740000 32) : dinvOf dst
    = select (cmpf (F := Ideal) .ogt (degOf dst) (broadcastInDim S100000 ![] bcast_S_S100000 (constant (F := Ideal) S_ .f32 0x00000000#32)))
        (Host.rsqrt (degOf dst)) (broadcastInDim S100000 ![] bcast_S_S100000 (id (constant (F := Ideal) S_ .f32 0x00000000#32))) := rfl

theorem normOf_eq (src dst : IVec S740000 32) : normOf src dst = normWith (dinvOf dst) src dst := rfl

section Stretches

variable (X : Valuation τ sig (Elt Ideal))

/-! ### The first stretch: the node matrix, the index arrays, the degree test and its inverse square root -/

theorem first_nodes : StableHlo.after hostOps0 X (Proc.devRef .tc main_v0) = nodesOf (X (Proc.devRef .tc main_arg0)) := by
  dsimp only [hostOps0]; after_results_simp <;> rfl
theorem first_src : StableHlo.after hostOps0 X (Proc.devRef .tc main_v4) = srcOf (X (Proc.devRef .tc main_arg1)) := by
  dsimp only [hostOps0]; after_results_simp <;> rfl
theorem first_dst : StableHlo.after hostOps0 X (Proc.devRef .tc main_v7) = dstOf (X (Proc.devRef .tc main_arg1)) := by
  dsimp only [hostOps0]; after_results_simp <;> rfl
theorem first_positive : StableHlo.after hostOps0 X (Proc.devRef .tc main_v13)
    = cmpf (F := Ideal) .ogt (degOf (dstOf (X (Proc.devRef .tc main_arg1)))) (broadcastInDim S100000 ![] bcast_S_S100000 (constant (F := Ideal) S_ .f32 0x00000000#32)) := by
  dsimp only [hostOps0]; after_results_simp <;> rfl
theorem first_rsqrt : StableHlo.after hostOps0 X (Proc.devRef .tc main_v14) = Host.rsqrt (degOf (dstOf (X (Proc.devRef .tc main_arg1)))) := by
  dsimp only [hostOps0]; after_results_simp <;> rfl
theorem first_zero : StableHlo.after hostOps0 X (Proc.devRef .tc main_cst_2) = constant (F := Ideal) S_ .f32 0x00000000#32 := by
  dsimp only [hostOps0]; after_results_simp <;> rfl
theorem first_keeps_weights : StableHlo.after hostOps0 X (Proc.devRef .tc main_arg2) = X (Proc.devRef .tc main_arg2) := by
  dsimp only [hostOps0]; after_results_simp
theorem first_keeps_biases : StableHlo.after hostOps0 X (Proc.devRef .tc main_arg3) = X (Proc.devRef .tc main_arg3) := by
  dsimp only [hostOps0]; after_results_simp

/-! ### The second stretch: the inverse square root where the degree is positive, zero elsewhere -/

theorem second_dinv : StableHlo.after hostOps0_1 X (Proc.devRef .tc main_v15)
    = select (X (Proc.devRef .tc main_v13)) (X (Proc.devRef .tc main_v14)) (broadcastInDim S100000 ![] bcast_S_S100000 (id (X (Proc.devRef .tc main_cst_2)))) := by
  dsimp only [hostOps0_1]; after_results_simp
  simp only [Cert.Lib.TypedRefCasts.ofBuf_toBuf]
  rfl
theorem second_keeps_nodes : StableHlo.after hostOps0_1 X (Proc.devRef .tc main_v0) = X (Proc.devRef .tc main_v0) := by
  dsimp only [hostOps0_1]; after_results_simp
theorem second_keeps_src : StableHlo.after hostOps0_1 X (Proc.devRef .tc main_v4) = X (Proc.devRef .tc main_v4) := by
  dsimp only [hostOps0_1]; after_results_simp
theorem second_keeps_dst : StableHlo.after hostOps0_1 X (Proc.devRef .tc main_v7) = X (Proc.devRef .tc main_v7) := by
  dsimp only [hostOps0_1]; after_results_simp
theorem second_keeps_weights : StableHlo.after hostOps0_1 X (Proc.devRef .tc main_arg2) = X (Proc.devRef .tc main_arg2) := by
  dsimp only [hostOps0_1]; after_results_simp
theorem second_keeps_biases : StableHlo.after hostOps0_1 X (Proc.devRef .tc main_arg3) = X (Proc.devRef .tc main_arg3) := by
  dsimp only [hostOps0_1]; after_results_simp

/-! ### The third stretch: the messages' weights, the bias rows and the first weight matrix -/

theorem third_nrm : StableHlo.after hostOps0_2 X (Proc.devRef .tc main_v31)
    = normWith (X (Proc.devRef .tc main_v15)) (X (Proc.devRef .tc main_v4)) (X (Proc.devRef .tc main_v7)) := by
  dsimp only [hostOps0_2]; after_results_simp <;> rfl
theorem third_bias0 : StableHlo.after hostOps0_2 X (Proc.devRef .tc main_v34) = rowOf (biasVec0Of (X (Proc.devRef .tc main_arg3))) := by
  dsimp only [hostOps0_2]; after_results_simp <;> rfl
theorem third_bias1 : StableHlo.after hostOps0_2 X (Proc.devRef .tc main_v37) = rowOf (biasVec1Of (X (Proc.devRef .tc main_arg3))) := by
  dsimp only [hostOps0_2]; after_results_simp <;> rfl
theorem third_bias2 : StableHlo.after hostOps0_2 X (Proc.devRef .tc main_v40) = rowOf (biasVec2Of (X (Proc.devRef .tc main_arg3))) := by
  dsimp only [hostOps0_2]; after_results_simp <;> rfl
theorem third_weight0 : StableHlo.after hostOps0_2 X (Proc.devRef .tc main_v42) = weight0Of (X (Proc.devRef .tc main_arg2)) := by
  dsimp only [hostOps0_2]; after_results_simp <;> rfl
theorem third_keeps_nodes : StableHlo.after hostOps0_2 X (Proc.devRef .tc main_v0) = X (Proc.devRef .tc main_v0) := by
  dsimp only [hostOps0_2]; after_results_simp
theorem third_keeps_src : StableHlo.after hostOps0_2 X (Proc.devRef .tc main_v4) = X (Proc.devRef .tc main_v4) := by
  dsimp only [hostOps0_2]; after_results_simp
theorem third_keeps_dst : StableHlo.after hostOps0_2 X (Proc.devRef .tc main_v7) = X (Proc.devRef .tc main_v7) := by
  dsimp only [hostOps0_2]; after_results_simp
theorem third_keeps_weights : StableHlo.after hostOps0_2 X (Proc.devRef .tc main_arg2) = X (Proc.devRef .tc main_arg2) := by
  dsimp only [hostOps0_2]; after_results_simp

end Stretches

/-! ## At the first launch's entry -/

theorem entry_nodes : W3 m ρ c (Proc.devRef .tc main_v0) = nodesOf (m ((c : Thread nD τ).loc main_arg0)) :=
  (third_keeps_nodes (W2 m ρ c)).trans ((second_keeps_nodes (W1 m ρ c)).trans (first_nodes (W0 m ρ c)))

theorem entry_src : W3 m ρ c (Proc.devRef .tc main_v4) = srcOf (m ((c : Thread nD τ).loc main_arg1)) :=
  (third_keeps_src (W2 m ρ c)).trans ((second_keeps_src (W1 m ρ c)).trans (first_src (W0 m ρ c)))

theorem entry_dst : W3 m ρ c (Proc.devRef .tc main_v7) = dstOf (m ((c : Thread nD τ).loc main_arg1)) :=
  (third_keeps_dst (W2 m ρ c)).trans ((second_keeps_dst (W1 m ρ c)).trans (first_dst (W0 m ρ c)))

theorem entry_weights : W3 m ρ c (Proc.devRef .tc main_arg2) = m ((c : Thread nD τ).loc main_arg2) :=
  (third_keeps_weights (W2 m ρ c)).trans ((second_keeps_weights (W1 m ρ c)).trans (first_keeps_weights (W0 m ρ c)))

theorem entry_biases : W2 m ρ c (Proc.devRef .tc main_arg3) = m ((c : Thread nD τ).loc main_arg3) :=
  (second_keeps_biases (W1 m ρ c)).trans (first_keeps_biases (W0 m ρ c))

theorem entry_weight0 : W3 m ρ c (Proc.devRef .tc main_v42) = weight0Of (m ((c : Thread nD τ).loc main_arg2)) :=
  (third_weight0 (W2 m ρ c)).trans (congrArg weight0Of ((second_keeps_weights (W1 m ρ c)).trans (first_keeps_weights (W0 m ρ c))))

theorem entry_bias0 : W3 m ρ c (Proc.devRef .tc main_v34) = rowOf (biasVec0Of (m ((c : Thread nD τ).loc main_arg3))) :=
  (third_bias0 (W2 m ρ c)).trans (congrArg (fun b => rowOf (biasVec0Of b)) (entry_biases m ρ c))

theorem entry_bias1 : W3 m ρ c (Proc.devRef .tc main_v37) = rowOf (biasVec1Of (m ((c : Thread nD τ).loc main_arg3))) :=
  (third_bias1 (W2 m ρ c)).trans (congrArg (fun b => rowOf (biasVec1Of b)) (entry_biases m ρ c))

theorem entry_bias2 : W3 m ρ c (Proc.devRef .tc main_v40) = rowOf (biasVec2Of (m ((c : Thread nD τ).loc main_arg3))) :=
  (third_bias2 (W2 m ρ c)).trans (congrArg (fun b => rowOf (biasVec2Of b)) (entry_biases m ρ c))

/-- The per-node factor after the second stretch: the inverse square root of the in-degree where it is positive. -/
theorem entry_dinv : W2 m ρ c (Proc.devRef .tc main_v15) = dinvOf (dstOf (m ((c : Thread nD τ).loc main_arg1))) := by
  refine (second_dinv (W1 m ρ c)).trans ?_
  show select (StableHlo.after hostOps0 (W0 m ρ c) (Proc.devRef .tc main_v13)) (StableHlo.after hostOps0 (W0 m ρ c) (Proc.devRef .tc main_v14))
    (broadcastInDim S100000 ![] bcast_S_S100000 (id (StableHlo.after hostOps0 (W0 m ρ c) (Proc.devRef .tc main_cst_2)))) = _
  rw [first_positive, first_rsqrt, first_zero, dinvOf_eq]

theorem entry_nrm : W3 m ρ c (Proc.devRef .tc main_v31)
    = normOf (srcOf (m ((c : Thread nD τ).loc main_arg1))) (dstOf (m ((c : Thread nD τ).loc main_arg1))) := by
  refine (third_nrm (W2 m ρ c)).trans ?_
  rw [entry_dinv, normOf_eq]
  show normWith _ (StableHlo.after hostOps0_1 (W1 m ρ c) (Proc.devRef .tc main_v4)) (StableHlo.after hostOps0_1 (W1 m ρ c) (Proc.devRef .tc main_v7)) = _
  rw [second_keeps_src, second_keeps_dst]
  show normWith _ (StableHlo.after hostOps0 (W0 m ρ c) (Proc.devRef .tc main_v4)) (StableHlo.after hostOps0 (W0 m ρ c) (Proc.devRef .tc main_v7)) = _
  rw [first_src, first_dst]

/-! ## What is carried from boundary to boundary -/

/-- A boundary's contents hold the graph's index arrays and weights, the three bias rows and the weight argument. -/
structure Carried (X : Valuation τ sig (Elt Ideal)) : Prop where
  src : X (Proc.devRef .tc main_v4) = srcOf (m ((c : Thread nD τ).loc main_arg1))
  dst : X (Proc.devRef .tc main_v7) = dstOf (m ((c : Thread nD τ).loc main_arg1))
  nrm : X (Proc.devRef .tc main_v31)
    = normOf (srcOf (m ((c : Thread nD τ).loc main_arg1))) (dstOf (m ((c : Thread nD τ).loc main_arg1)))
  b0 : X (Proc.devRef .tc main_v34) = rowOf (biasVec0Of (m ((c : Thread nD τ).loc main_arg3)))
  b1 : X (Proc.devRef .tc main_v37) = rowOf (biasVec1Of (m ((c : Thread nD τ).loc main_arg3)))
  b2 : X (Proc.devRef .tc main_v40) = rowOf (biasVec2Of (m ((c : Thread nD τ).loc main_arg3)))
  w : X (Proc.devRef .tc main_arg2) = m ((c : Thread nD τ).loc main_arg2)

theorem carried3 : Carried m c (W3 m ρ c) :=
  ⟨entry_src m ρ c, entry_dst m ρ c, entry_nrm m ρ c, entry_bias0 m ρ c, entry_bias1 m ρ c, entry_bias2 m ρ c, entry_weights m ρ c⟩

/-- The first launch writes none of them. -/
theorem carried4 : Carried m c (W4 m ρ c) := by
  have h := carried3 m ρ c
  exact ⟨(W4_of_ne m ρ c main_v4 (by decide)).trans h.src,
    (W4_of_ne m ρ c main_v7 (by decide)).trans h.dst,
    (W4_of_ne m ρ c main_v31 (by decide)).trans h.nrm,
    (W4_of_ne m ρ c main_v34 (by decide)).trans h.b0,
    (W4_of_ne m ρ c main_v37 (by decide)).trans h.b1,
    (W4_of_ne m ρ c main_v40 (by decide)).trans h.b2,
    (W4_of_ne m ρ c main_arg2 (by decide)).trans h.w⟩

/-- Nor does the stretch after it. -/
theorem carried5 : Carried m c (W5 m ρ c) := by
  have h := carried4 m ρ c
  refine ⟨Eq.trans ?_ h.src, Eq.trans ?_ h.dst, Eq.trans ?_ h.nrm, Eq.trans ?_ h.b0, Eq.trans ?_ h.b1, Eq.trans ?_ h.b2, Eq.trans ?_ h.w⟩
  all_goals (show StableHlo.after hostOps1 (W4 m ρ c) _ = _; dsimp only [hostOps1]; after_results_simp)

theorem carried6 : Carried m c (W6 m ρ c) := by
  have h := carried5 m ρ c
  exact ⟨(W6_of_ne m ρ c main_v4 (by decide)).trans h.src,
    (W6_of_ne m ρ c main_v7 (by decide)).trans h.dst,
    (W6_of_ne m ρ c main_v31 (by decide)).trans h.nrm,
    ((W6_arr m ρ c 1).trans (((dat1 (V5 m ρ) c).arrAt_in 1 rfl _).trans (A_eq1 (V5 m ρ) c 1))).trans h.b0,
    (W6_of_ne m ρ c main_v37 (by decide)).trans h.b1,
    (W6_of_ne m ρ c main_v40 (by decide)).trans h.b2,
    (W6_of_ne m ρ c main_arg2 (by decide)).trans h.w⟩

theorem carried7 : Carried m c (W7 m ρ c) := by
  have h := carried6 m ρ c
  refine ⟨Eq.trans ?_ h.src, Eq.trans ?_ h.dst, Eq.trans ?_ h.nrm, Eq.trans ?_ h.b0, Eq.trans ?_ h.b1, Eq.trans ?_ h.b2, Eq.trans ?_ h.w⟩
  all_goals (show StableHlo.after hostOps2 (W6 m ρ c) _ = _; dsimp only [hostOps2]; after_results_simp)

theorem carried8 : Carried m c (W8 m ρ c) := by
  have h := carried7 m ρ c
  exact ⟨(W8_of_ne m ρ c main_v4 (by decide)).trans h.src,
    (W8_of_ne m ρ c main_v7 (by decide)).trans h.dst,
    (W8_of_ne m ρ c main_v31 (by decide)).trans h.nrm,
    (W8_of_ne m ρ c main_v34 (by decide)).trans h.b0,
    ((W8_arr m ρ c 1).trans (((dat2 (V7 m ρ) c).arrAt_in 1 rfl _).trans (A_eq2 (V7 m ρ) c 1))).trans h.b1,
    (W8_of_ne m ρ c main_v40 (by decide)).trans h.b2,
    (W8_of_ne m ρ c main_arg2 (by decide)).trans h.w⟩

theorem carried9 : Carried m c (W9 m ρ c) := by
  have h := carried8 m ρ c
  refine ⟨Eq.trans ?_ h.src, Eq.trans ?_ h.dst, Eq.trans ?_ h.nrm, Eq.trans ?_ h.b0, Eq.trans ?_ h.b1, Eq.trans ?_ h.b2, Eq.trans ?_ h.w⟩
  all_goals (show StableHlo.after hostOps3 (W8 m ρ c) _ = _; dsimp only [hostOps3]; after_results_simp)

/-! ## The layers, boundary by boundary -/

/-- The first launch's output: the dense layer of the node matrix. -/
def h0 : FVec Ideal S100000x128 .f32 := dense (nodesOf (m ((c : Thread nD τ).loc main_arg0))) (weight0Of (m ((c : Thread nD τ).loc main_arg2)))
/-- The second launch's output. -/
def h1 : FVec Ideal S100000x128 .f32 := dense (biasRelu (aggOf (srcOf (m ((c : Thread nD τ).loc main_arg1))) (dstOf (m ((c : Thread nD τ).loc main_arg1))) (normOf (srcOf (m ((c : Thread nD τ).loc main_arg1))) (dstOf (m ((c : Thread nD τ).loc main_arg1)))) (h0 m c)) (rowOf (biasVec0Of (m ((c : Thread nD τ).loc main_arg3))))) (weight1Of (m ((c : Thread nD τ).loc main_arg2)))
/-- The third launch's output. -/
def h2 : FVec Ideal S100000x128 .f32 := dense (biasRelu (aggOf (srcOf (m ((c : Thread nD τ).loc main_arg1))) (dstOf (m ((c : Thread nD τ).loc main_arg1))) (normOf (srcOf (m ((c : Thread nD τ).loc main_arg1))) (dstOf (m ((c : Thread nD τ).loc main_arg1)))) (h1 m c)) (rowOf (biasVec1Of (m ((c : Thread nD τ).loc main_arg3))))) (weight2Of (m ((c : Thread nD τ).loc main_arg2)))
/-- The last launch's output. -/
def h3 : FVec Ideal S100000x128 .f32 := biasRelu (aggOf (srcOf (m ((c : Thread nD τ).loc main_arg1))) (dstOf (m ((c : Thread nD τ).loc main_arg1))) (normOf (srcOf (m ((c : Thread nD τ).loc main_arg1))) (dstOf (m ((c : Thread nD τ).loc main_arg1)))) (h2 m c)) (rowOf (biasVec2Of (m ((c : Thread nD τ).loc main_arg3))))

theorem out0 : W4 m ρ c (Proc.devRef .tc main_v43) = h0 m c := by
  refine (W4_arr m ρ c 2).trans ((Region0.final (V3 m ρ) c).trans ?_)
  show dense (W3 m ρ c (Proc.devRef .tc main_v0)) (W3 m ρ c (Proc.devRef .tc main_v42)) = _
  rw [entry_nodes, entry_weight0]; rfl

theorem agg0 : W5 m ρ c (Proc.devRef .tc main_v55) = aggOf (srcOf (m ((c : Thread nD τ).loc main_arg1))) (dstOf (m ((c : Thread nD τ).loc main_arg1))) (normOf (srcOf (m ((c : Thread nD τ).loc main_arg1))) (dstOf (m ((c : Thread nD τ).loc main_arg1)))) (h0 m c) := by
  have h := carried4 m ρ c
  refine Eq.trans (b := aggOf (W4 m ρ c (Proc.devRef .tc main_v4)) (W4 m ρ c (Proc.devRef .tc main_v7))
    (W4 m ρ c (Proc.devRef .tc main_v31)) (W4 m ρ c (Proc.devRef .tc main_v43))) ?_ (by rw [h.src, h.dst, h.nrm, out0])
  show StableHlo.after hostOps1 (W4 m ρ c) _ = _
  dsimp only [hostOps1]; after_results_simp <;> rfl

theorem weight1 : W5 m ρ c (Proc.devRef .tc main_v57) = weight1Of (m ((c : Thread nD τ).loc main_arg2)) := by
  have h := carried4 m ρ c
  refine Eq.trans (b := weight1Of (W4 m ρ c (Proc.devRef .tc main_arg2))) ?_ (by rw [h.w])
  show StableHlo.after hostOps1 (W4 m ρ c) _ = _
  dsimp only [hostOps1]; after_results_simp <;> rfl

theorem out1 : W6 m ρ c (Proc.devRef .tc main_v58) = h1 m c := by
  refine (W6_arr m ρ c 3).trans ((Region1.final (V5 m ρ) c).trans ?_)
  show dense (biasRelu (W5 m ρ c (Proc.devRef .tc main_v55)) (W5 m ρ c (Proc.devRef .tc main_v34)))
    (W5 m ρ c (Proc.devRef .tc main_v57)) = _
  rw [agg0, (carried5 m ρ c).b0, weight1]; rfl

theorem agg1 : W7 m ρ c (Proc.devRef .tc main_v70) = aggOf (srcOf (m ((c : Thread nD τ).loc main_arg1))) (dstOf (m ((c : Thread nD τ).loc main_arg1))) (normOf (srcOf (m ((c : Thread nD τ).loc main_arg1))) (dstOf (m ((c : Thread nD τ).loc main_arg1)))) (h1 m c) := by
  have h := carried6 m ρ c
  refine Eq.trans (b := aggOf (W6 m ρ c (Proc.devRef .tc main_v4)) (W6 m ρ c (Proc.devRef .tc main_v7))
    (W6 m ρ c (Proc.devRef .tc main_v31)) (W6 m ρ c (Proc.devRef .tc main_v58))) ?_ (by rw [h.src, h.dst, h.nrm, out1])
  show StableHlo.after hostOps2 (W6 m ρ c) _ = _
  dsimp only [hostOps2]; after_results_simp <;> rfl

theorem weight2 : W7 m ρ c (Proc.devRef .tc main_v72) = weight2Of (m ((c : Thread nD τ).loc main_arg2)) := by
  have h := carried6 m ρ c
  refine Eq.trans (b := weight2Of (W6 m ρ c (Proc.devRef .tc main_arg2))) ?_ (by rw [h.w])
  show StableHlo.after hostOps2 (W6 m ρ c) _ = _
  dsimp only [hostOps2]; after_results_simp <;> rfl

theorem out2 : W8 m ρ c (Proc.devRef .tc main_v73) = h2 m c := by
  refine (W8_arr m ρ c 3).trans ((Region2.final (V7 m ρ) c).trans ?_)
  show dense (biasRelu (W7 m ρ c (Proc.devRef .tc main_v70)) (W7 m ρ c (Proc.devRef .tc main_v37)))
    (W7 m ρ c (Proc.devRef .tc main_v72)) = _
  rw [agg1, (carried7 m ρ c).b1, weight2]; rfl

theorem agg2 : W9 m ρ c (Proc.devRef .tc main_v85) = aggOf (srcOf (m ((c : Thread nD τ).loc main_arg1))) (dstOf (m ((c : Thread nD τ).loc main_arg1))) (normOf (srcOf (m ((c : Thread nD τ).loc main_arg1))) (dstOf (m ((c : Thread nD τ).loc main_arg1)))) (h2 m c) := by
  have h := carried8 m ρ c
  refine Eq.trans (b := aggOf (W8 m ρ c (Proc.devRef .tc main_v4)) (W8 m ρ c (Proc.devRef .tc main_v7))
    (W8 m ρ c (Proc.devRef .tc main_v31)) (W8 m ρ c (Proc.devRef .tc main_v73))) ?_ (by rw [h.src, h.dst, h.nrm, out2])
  show StableHlo.after hostOps3 (W8 m ρ c) _ = _
  dsimp only [hostOps3]; after_results_simp <;> rfl

theorem out3 : W10 m ρ c (Proc.devRef .tc main_v86) = h3 m c := by
  refine (W10_arr m ρ c 2).trans ((Region3.final (V9 m ρ) c).trans ?_)
  show biasRelu (W9 m ρ c (Proc.devRef .tc main_v85)) (W9 m ρ c (Proc.devRef .tc main_v40)) = _
  rw [agg2, (carried9 m ρ c).b2]; rfl

/-- The result buffer at the last boundary is the network of the arguments. -/
theorem result : W11 m ρ c (Proc.devRef .tc main_v87)
    = outWith (m ((c : Thread nD τ).loc main_arg0)) (m ((c : Thread nD τ).loc main_arg1)) (m ((c : Thread nD τ).loc main_arg2)) (rowOf (biasVec0Of (m ((c : Thread nD τ).loc main_arg3)))) (rowOf (biasVec1Of (m ((c : Thread nD τ).loc main_arg3)))) (rowOf (biasVec2Of (m ((c : Thread nD τ).loc main_arg3)))) := by
  refine Eq.trans (b := broadcastInDim S1x100000x128 ![1, 2] bcast_S100000x128_S1x100000x128_1_2
    (W10 m ρ c (Proc.devRef .tc main_v86))) ?_ (by rw [out3]; rfl)
  show StableHlo.after hostOps4 (W10 m ρ c) _ = _
  dsimp only [hostOps4]; after_results_simp <;> rfl

end Cert.Gcn.Boundary

end
-- ==== Proof.RefValue.lean ====
/-
  The reference program's result is the same network.

  The reference applies, to its own arguments, the operations the network is written in: the host matrix product for
  each dense layer, the same gather, scaling and segment sum for each aggregation, the bias row broadcast along a new
  leading axis and down the rows, and the clamp at zero. Its result term is therefore the network with the bias rows
  in the broadcast spelling, which is the reshaped spelling (`rowOf_eq_broadcast`).
-/
import proofs.«155915_j65463891526244_1_alg».proof.Proof.Program
import proofs.«155915_j65463891526244_1_alg».proof.Proof.RefRun

set_option maxRecDepth 16384

noncomputable section

namespace Cert.Gcn.RefValue

open Cert.ReferenceIdeal Idealize.ShloMosaic Idealize.ShloMosaic.TcCoe Idealize.SL.Sem

/-- The reference run's result term is the network of the reference's arguments. -/
theorem result (m : (ℓ : Loc nD τ sig) → Buf (Elt Ideal) ℓ) (c : Dev nD) :
    Cert.ReferenceIdeal.ValueP.res_main_v95 (F := Ideal) m c
      = outWith (m ((c.tc : Thread nD τ).loc main_arg0)) (m ((c.tc : Thread nD τ).loc main_arg1))
          (m ((c.tc : Thread nD τ).loc main_arg2))
          (rowOf (biasVec0Of (m ((c.tc : Thread nD τ).loc main_arg3))))
          (rowOf (biasVec1Of (m ((c.tc : Thread nD τ).loc main_arg3))))
          (rowOf (biasVec2Of (m ((c.tc : Thread nD τ).loc main_arg3)))) := by
  rw [rowOf_eq_broadcast, rowOf_eq_broadcast, rowOf_eq_broadcast]
  unfold Cert.ReferenceIdeal.ValueP.res_main_v95
  rfl

end Cert.Gcn.RefValue

end
-- ==== Proof.lean ====
/-
  Both programs compute a three-layer graph convolution on the extended reals.

  The kernel program runs each layer's dense half in a tiled kernel — the first a plain product of the node rows with
  the weight, the next two a bias, a clamp at zero and the product, the last a bias and a clamp — and the gather,
  scaling and segment sum between them on the host. The reference runs the same layers entirely on the host. Rounding
  a product's operands to a shorter format is the identity on the extended reals and a product into a zero accumulator
  is the host's product, so each kernel launch leaves its layer's function of the arrays it found (`Region0` …
  `Region3`), the host stretches between them are the same operations on both sides, and the result buffers hold one
  function of the arguments (`Gcn.outWith`): `Boundary.result` for the kernel program, `RefValue.result` for the
  reference. No law beyond reading sums index by index is used, so the finiteness of the inputs is never opened.
  The ideal pass rewrote nothing, so the idealization is the program's own text.
-/
import proofs.«155915_j65463891526244_1_alg».proof.Defs
import proofs.«155915_j65463891526244_1_alg».proof.Proof.Gen.Kernel
import proofs.«155915_j65463891526244_1_alg».proof.Proof.Gen.Kernel.Frame
import proofs.«155915_j65463891526244_1_alg».proof.Proof.Gen.KernelIdeal
import proofs.«155915_j65463891526244_1_alg».proof.Proof.Gen.KernelIdeal.Frame
import proofs.«155915_j65463891526244_1_alg».proof.Proof.Gen.ReferenceIdeal
import proofs.«155915_j65463891526244_1_alg».proof.Proof.Gen.Pre_finite_inputs
import proofs.«155915_j65463891526244_1_alg».proof.Proof.RefRun
import proofs.«155915_j65463891526244_1_alg».proof.Proof.RunValue
import proofs.«155915_j65463891526244_1_alg».proof.Proof.Boundaries
import proofs.«155915_j65463891526244_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the network of those arguments. -/
theorem algebraic : Cert.algebraic_KernelIdeal_ReferenceIdeal := by
  intro m ρ m' ρ' _ hagree
  refine ⟨fun c => Cert.Gcn.outWith (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.Gcn.rowOf (Cert.Gcn.biasVec0Of (m ((c.tc : Thread Cert.KernelIdeal.nD Cert.KernelIdeal.τ).loc Cert.KernelIdeal.main_arg3))))
      (Cert.Gcn.rowOf (Cert.Gcn.biasVec1Of (m ((c.tc : Thread Cert.KernelIdeal.nD Cert.KernelIdeal.τ).loc Cert.KernelIdeal.main_arg3))))
      (Cert.Gcn.rowOf (Cert.Gcn.biasVec2Of (m ((c.tc : Thread Cert.KernelIdeal.nD Cert.KernelIdeal.τ).loc Cert.KernelIdeal.main_arg3)))),
    ?_, ?_⟩
  · exact (θ_run Cert.KernelIdeal.defs _ _).mono
      (fun r h c => ⟨(h c).1.trans (Cert.Gcn.Boundary.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.Gcn.RefValue.result m' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
